-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x40, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x40, .f32⟩
  | .hbm, ⟨94, _⟩ => ⟨S1700000x1, .f32⟩
  | .hbm, ⟨95, _⟩ => ⟨S1700000x40, .f32⟩
  | .hbm, ⟨96, _⟩ => ⟨S1700000x40, .f32⟩
  | .hbm, ⟨97, _⟩ => ⟨S_, .f32⟩
  | .hbm, ⟨98, _⟩ => ⟨S100000x40, .f32⟩
  | .hbm, ⟨99, _⟩ => ⟨S1700000x1, .i32⟩
  | .hbm, ⟨100, _⟩ => ⟨S100000x40, .f32⟩
  | .hbm, ⟨101, _⟩ => ⟨S1x40, .f32⟩
  | .hbm, ⟨102, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x40, .f32⟩
  | .local _ .vmem, ⟨15, _⟩ => ⟨S10000x40, .f32⟩
  | .local _ .vmem, ⟨16, _⟩ => ⟨S10000x40, .f32⟩
  | .local _ .vmem, ⟨17, _⟩ => ⟨S10000x40, .f32⟩
  | .local _ .vmem, ⟨18, _⟩ => ⟨S10000x40, .f32⟩
  | .local _ .vmem, ⟨19, _⟩ => ⟨S1x40, .f32⟩
  | .local _ .vmem, ⟨20, _⟩ => ⟨S10000x40, .f32⟩
  | .local _ .vmem, ⟨21, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x40, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x40, .f32⟩
  | .hbm, ⟨104, _⟩ => ⟨S1700000x1, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The kernel program's run, read at its last boundary.

  The program is four tiled regions among stretches of host operations, and the contents of the buffers at each
  boundary between them is a fold: a stretch applies its operations, a region replaces its arrays by what its
  write-backs leave. Every weakly fair execution terminates, nothing faulting, with EVERY buffer that outlives
  the regions at the last boundary's contents. In particular the result buffer ends at what region 3's
  write-backs leave in it, and the eight arguments end as launched.
-/
import proofs.«157300_j11587821765342_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every buffer outside the regions' scopes at the contents of the last
    boundary of the fold: the segments run in order from the launch memory, the last thread state read against the
    final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- The result buffer ends at the last boundary's contents; the arguments end as launched. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_boundary m ρ)

end Cert.KernelIdeal.Whole

end
-- ==== Proof.Boundary3.lean ====
/-
  The buffers when the first region is entered.

  The host prelude computes, from the edge list alone, the source and target index columns (the edges followed by
  one self loop per node) and the per-edge weight d^(-1/2)[src] · d^(-1/2)[dst], d the in-degree with the self
  loop counted and d^(-1/2) read as 0 where d is not positive. The kernel's program and the reference apply the
  same operations in the same order, so each buffer holds the reference's stage of the same name. The prelude is
  followed in its three stretches — the columns and the degree, the selection of d^(-1/2), the weights — and no
  operation of it writes an argument.
-/
import proofs.«157300_j11587821765342_1_alg».proof.Proof.Gen.KernelIdeal.Frame
import proofs.«157300_j11587821765342_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen

variable (m : (ℓ : Loc nD τ sig) → Buf (Elt Ideal) ℓ) (ρ : Dev nD → PrngReg)

/-! ## After the first stretch: the columns, the degree's comparison and its inverse square root -/

/-- The source column: the edges' sources, then every node once. -/
theorem src1 (c : Dev nD) : W1 m ρ c (Proc.devRef .tc main_v3) = Cert.ReferenceIdeal.ReadP.val_main_v3 (F := Ideal) (m ((c : Thread nD τ).loc main_arg1)) := by
  dsimp only [W1, hostOps0]
  after_results_simp
  rfl

/-- The target column: the edges' targets, then every node once. -/
theorem dst1 (c : Dev nD) : W1 m ρ c (Proc.devRef .tc main_v6) = Cert.ReferenceIdeal.ReadP.val_main_v6 (F := Ideal) (m ((c : Thread nD τ).loc main_arg1)) := by
  dsimp only [W1, hostOps0]
  after_results_simp
  rfl

/-- Where the in-degree is positive. -/
theorem pos1 (c : Dev nD) : W1 m ρ c (Proc.devRef .tc main_v12) = Cert.ReferenceIdeal.ReadP.val_main_v12 (F := Ideal) (m ((c : Thread nD τ).loc main_arg1)) := by
  dsimp only [W1, hostOps0]
  after_results_simp
  rfl

/-- The inverse square root of the in-degree. -/
theorem rsq1 (c : Dev nD) : W1 m ρ c (Proc.devRef .tc main_v13) = Cert.ReferenceIdeal.ReadP.val_main_v13 (F := Ideal) (m ((c : Thread nD τ).loc main_arg1)) := by
  dsimp only [W1, hostOps0]
  after_results_simp
  rfl

/-- The zero used where the in-degree is not positive. -/
theorem zero1 (c : Dev nD) : W1 m ρ c (Proc.devRef .tc main_cst_2) = Cert.ReferenceIdeal.ReadP.val_main_cst_2 (F := Ideal) := by
  dsimp only [W1, hostOps0]
  after_results_simp
  try rfl

/-! ## After the second stretch: d^(-1/2), zero where the degree is not positive -/

/-- The selection stretch (the three operations of the where-call), whatever the buffers hold when it starts:
    d^(-1/2) is the inverse square root where the degree is positive and the given zero elsewhere. -/
theorem where2 (W : Valuation τ sig (Elt Ideal)) :
    StableHlo.after hostOps0_1 W (Proc.devRef .tc main_v14)
      = select (W (Proc.devRef .tc main_v12) : IVec S100000 1) (W (Proc.devRef .tc main_v13) : FVec Ideal S100000 .f32)
          (broadcastInDim S100000 ![] bcast_S_S100000 (id (W (Proc.devRef .tc main_cst_2) : FVec Ideal S_ .f32))) := by
  dsimp only [hostOps0_1]
  after_results_simp
  rfl

theorem dinv2 (c : Dev nD) : W2 m ρ c (Proc.devRef .tc main_v14) = Cert.ReferenceIdeal.ReadP.val_main_v14 (F := Ideal) (m ((c : Thread nD τ).loc main_arg1)) := by
  refine (where2 (W1 m ρ c)).trans ?_
  rw [pos1, rsq1, zero1]
  rfl

theorem src2 (c : Dev nD) : W2 m ρ c (Proc.devRef .tc main_v3) = Cert.ReferenceIdeal.ReadP.val_main_v3 (F := Ideal) (m ((c : Thread nD τ).loc main_arg1)) := by
  have h0 := src1 m ρ c
  show StableHlo.after hostOps0_1 (W1 m ρ c) (Proc.devRef .tc main_v3) = _
  generalize W1 m ρ c = W at *
  dsimp only [hostOps0_1]
  after_results_simp
  exact h0

theorem dst2 (c : Dev nD) : W2 m ρ c (Proc.devRef .tc main_v6) = Cert.ReferenceIdeal.ReadP.val_main_v6 (F := Ideal) (m ((c : Thread nD τ).loc main_arg1)) := by
  have h0 := dst1 m ρ c
  show StableHlo.after hostOps0_1 (W1 m ρ c) (Proc.devRef .tc main_v6) = _
  generalize W1 m ρ c = W at *
  dsimp only [hostOps0_1]
  after_results_simp
  exact h0

/-! ## After the third stretch, when region 0 is entered -/

/-- The edge weights d^(-1/2)[src] · d^(-1/2)[dst]. -/
theorem norm3 (c : Dev nD) : W3 m ρ c (Proc.devRef .tc main_v29) = Cert.ReferenceIdeal.ReadP.val_main_v29 (F := Ideal) (m ((c : Thread nD τ).loc main_arg1)) := by
  have h0 := dinv2 m ρ c
  have h1 := src2 m ρ c
  have h2 := dst2 m ρ c
  show StableHlo.after hostOps0_2 (W2 m ρ c) (Proc.devRef .tc main_v29) = _
  generalize W2 m ρ c = W at *
  dsimp only [hostOps0_2]
  after_results_simp
  rw [h0, h1, h2]
  rfl

theorem src3 (c : Dev nD) : W3 m ρ c (Proc.devRef .tc main_v3) = Cert.ReferenceIdeal.ReadP.val_main_v3 (F := Ideal) (m ((c : Thread nD τ).loc main_arg1)) := by
  have h0 := src2 m ρ c
  show StableHlo.after hostOps0_2 (W2 m ρ c) (Proc.devRef .tc main_v3) = _
  generalize W2 m ρ c = W at *
  dsimp only [hostOps0_2]
  after_results_simp
  exact h0

theorem dst3 (c : Dev nD) : W3 m ρ c (Proc.devRef .tc main_v6) = Cert.ReferenceIdeal.ReadP.val_main_v6 (F := Ideal) (m ((c : Thread nD τ).loc main_arg1)) := by
  have h0 := dst2 m ρ c
  show StableHlo.after hostOps0_2 (W2 m ρ c) (Proc.devRef .tc main_v6) = _
  generalize W2 m ρ c = W at *
  dsimp only [hostOps0_2]
  after_results_simp
  exact h0

/-- The prelude writes no argument. -/
theorem arg3_0 (c : Dev nD) : W3 m ρ c (Proc.devRef .tc main_arg0) = m ((c : Thread nD τ).loc main_arg0) := by
  dsimp only [W3, W2, W1, hostOps0, hostOps0_1, hostOps0_2]
  after_results_simp
/-- The prelude writes no argument. -/
theorem arg3_2 (c : Dev nD) : W3 m ρ c (Proc.devRef .tc main_arg2) = m ((c : Thread nD τ).loc main_arg2) := by
  dsimp only [W3, W2, W1, hostOps0, hostOps0_1, hostOps0_2]
  after_results_simp
/-- The prelude writes no argument. -/
theorem arg3_3 (c : Dev nD) : W3 m ρ c (Proc.devRef .tc main_arg3) = m ((c : Thread nD τ).loc main_arg3) := by
  dsimp only [W3, W2, W1, hostOps0, hostOps0_1, hostOps0_2]
  after_results_simp
/-- The prelude writes no argument. -/
theorem arg3_4 (c : Dev nD) : W3 m ρ c (Proc.devRef .tc main_arg4) = m ((c : Thread nD τ).loc main_arg4) := by
  dsimp only [W3, W2, W1, hostOps0, hostOps0_1, hostOps0_2]
  after_results_simp
/-- The prelude writes no argument. -/
theorem arg3_5 (c : Dev nD) : W3 m ρ c (Proc.devRef .tc main_arg5) = m ((c : Thread nD τ).loc main_arg5) := by
  dsimp only [W3, W2, W1, hostOps0, hostOps0_1, hostOps0_2]
  after_results_simp
/-- The prelude writes no argument. -/
theorem arg3_6 (c : Dev nD) : W3 m ρ c (Proc.devRef .tc main_arg6) = m ((c : Thread nD τ).loc main_arg6) := by
  dsimp only [W3, W2, W1, hostOps0, hostOps0_1, hostOps0_2]
  after_results_simp
/-- The prelude writes no argument. -/
theorem arg3_7 (c : Dev nD) : W3 m ρ c (Proc.devRef .tc main_arg7) = m ((c : Thread nD τ).loc main_arg7) := by
  dsimp only [W3, W2, W1, hostOps0, hostOps0_1, hostOps0_2]
  after_results_simp

end Cert.KernelIdeal.Boundary

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.GcnSpec.lean ====
/-
  The dense steps of a graph-convolution layer at exact arithmetic, entry by entry: the product of two matrices,
  a matrix with one row added to each of its rows, and the same followed by the positive part. Every tiled step
  of the kernel and every whole-array step of the reference is shown to be one of these three functions.
-/
import Idealize.ShloMosaic.Lib.ValueIdx
import Idealize.ShloMosaic.PureOps.Ideal

noncomputable section

namespace GcnSpec

open Idealize.ShloMosaic Idealize.ShloMosaic.ValueIdx

/-- The matrix product: (x·w)[i,j] = Σ_k x[i,k]·w[k,j]. -/
def mm {M K N : ℕ} (x : FVec Ideal ⟨2, ![M, K]⟩ .f32) (w : FVec Ideal ⟨2, ![K, N]⟩ .f32) :
    FVec Ideal ⟨2, ![M, N]⟩ .f32 :=
  fun i => ∑ k : Fin K, x (ix2 (n0 := M) (n1 := K) (i 0) k) * w (ix2 (n0 := K) (n1 := N) k (i 1))

/-- A row added to every row of a matrix: a[i,j] + r[0,j]. -/
def addRow {M K : ℕ} (a : FVec Ideal ⟨2, ![M, K]⟩ .f32) (r : FVec Ideal ⟨2, ![1, K]⟩ .f32) :
    FVec Ideal ⟨2, ![M, K]⟩ .f32 :=
  fun j => a j + r (ix2 (n0 := 1) (n1 := K) 0 (j 1))

/-- The positive part of the same: max(a[i,j] + r[0,j], 0). -/
def reluRow {M K : ℕ} (a : FVec Ideal ⟨2, ![M, K]⟩ .f32) (r : FVec Ideal ⟨2, ![1, K]⟩ .f32) :
    FVec Ideal ⟨2, ![M, K]⟩ .f32 :=
  fun j => max (a j + r (ix2 (n0 := 1) (n1 := K) 0 (j 1))) (Ideal.ofBits .f32 0x00000000#32)

end GcnSpec

end
-- ==== Proof.Region0.lean ====
/-
  The first tiled step: x · W0, ten blocks of 10000 rows.

  At grid point t the body multiplies rows 10000·t … 10000·t + 9999 of x by the whole of W0 and stores the
  product as the same rows of the result; the MXU product into a zero accumulator is, entry by entry, the sum
  over the contracted axis. The ten row blocks tile the 100000 rows, so the result array ends holding x · W0.
  Stated for ANY contents of the buffers when the region is entered.
-/
import proofs.«157300_j11587821765342_1_alg».proof.Proof.Gen.KernelIdeal.Frame
import proofs.«157300_j11587821765342_1_alg».proof.Proof.LibMatmulIdx
import proofs.«157300_j11587821765342_1_alg».proof.Proof.GcnSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiled

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

theorem dot0_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot0_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores, at entry (p, q) of the block: Σ_k x0[p,k] · x1[k,q]. -/
theorem pay0_apply (x0 : Vec Ideal S10000x128 .f32) (x1 : Vec Ideal S128x64 .f32) (j : S10000x64.Idx) :
    k0_pay1 (F := Ideal) x0 x1 j = ∑ k : Fin 128, x0 (ix2 (n0 := 10000) (n1 := 128) (j 0) k) * x1 (ix2 (n0 := 128) (n1 := 64) k (j 1)) := by
  unfold k0_pay1
  exact LibMatmulIdx.matmul2_apply (M := 10000) (K := 128) (N := 64) dot_S10000x128_S128x64_S10000x64_1_0_0_1_n_n rfl rfl
    dot0_l0 (fun i q => dot_S10000x128_S128x64_S10000x64_1_0_0_1_n_n.lhsIdx_val_of_single rfl i q)
    (fun i q => dot_S10000x128_S128x64_S10000x64_1_0_0_1_n_n.rhsIdx_val_of_single rfl i q) dot0_r1 none _ _ j

/-! ## The blocks as rows of the arrays -/

/-- The printed index maps over the grid: the row blocks of x and of the result move with the point, W0 stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of x, at (p, k), is x at row 10000·t + p. -/
theorem xblk0_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → Elt Ideal .f32) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The block of W0 is W0. -/
theorem wblk0_apply (c : Dev nD) (t : Fin cfg0.N) (y : S128x64.Idx) :
    (iblk0 V c 1 t : Vec Ideal S128x64 .f32) y = (V c main_arg2 : S128x64.Idx → Elt Ideal .f32) y := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-! ## What a point writes back, the cover, the array -/

/-- WHAT POINT t WRITES BACK is block t of x · W0. -/
theorem flushed0_eq (c : Dev nD) (t : Fin cfg0.N) :
    (dat0 V c).flushed 2 t = ((cfg0.win 2).blk t).view.read (Elt Ideal)
      (GcnSpec.mm (M := 100000) (K := 128) (N := 64) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e0, e1⟩ := idx0 t
  funext j
  rw [View.read_apply]
  refine (pay0_apply _ _ j).trans ?_
  unfold GcnSpec.mm
  refine Finset.sum_congr rfl fun k _ => ?_
  have hj0 : (j 0).val < 10000 := (j 0).isLt
  have hj1 : (j 1).val < 64 := (j 1).isLt
  congr 1
  · refine xblk0_apply V c t _ _ ?_ rfl
    show (((cfg0.win 2).blk t).view.emb j 0).val = t.val * 10000 + (j 0).val
    show win0_2.index t 0 * 10000 + 1 * (j 0).val = _
    rw [e0]; omega
  · refine (wblk0_apply V c t _).trans ?_
    congr 1
    funext a
    apply Fin.ext
    match a with
    | ⟨0, _⟩ => rfl
    | ⟨1, _⟩ => show (j 1).val = win0_2.index t 1 * 64 + 1 * (j 1).val; rw [e1]; omega

/-- An index of the result is in point t's block iff its row is one of the block's. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the result lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk0]
  obtain ⟨-, -, -, -, e0, e1⟩ := idx0 ⟨(i 0).val / 10000, by rw [hN]; omega⟩
  intro a
  match a with
  | ⟨0, _⟩ => show win0_2.index _ 0 * 10000 ≤ (i 0).val ∧ (i 0).val < win0_2.index _ 0 * 10000 + 10000; rw [e0]; show (i 0).val / 10000 * 10000 ≤ _ ∧ _ < (i 0).val / 10000 * 10000 + 10000; omega
  | ⟨1, _⟩ => show win0_2.index _ 1 * 64 ≤ (i 1).val ∧ (i 1).val < win0_2.index _ 1 * 64 + 64; rw [e1]; omega

/-- THE ARRAY after the region: x · W0 of the arrays as the region found them. -/
theorem final0 (c : Dev nD) :
    (dat0 V c).arrAt 2 cfg0.N = GcnSpec.mm (M := 100000) (K := 128) (N := 64) (V c main_arg0) (V c main_arg2) :=
  (dat0 V c).arrAt_eq_of_cover 2 _ (fun t _ => flushed0_eq V c t) cover0

end Cert.KernelIdeal.Tiled

end
-- ==== Proof.RefStages.lean ====
/-
  The reference's dense steps are the layer's three functions.

  Each host product (x · W0, h · W1, h · W2) is, entry by entry, the sum over the contracted axis; the bias of a
  layer reaches the matrix as a vector placed as a [1, K] row and repeated down the rows, so that the activation
  is max(agg[i,j] + b[j], 0) and the last layer ends agg[i,j] + b[j]. The aggregated matrix each of them starts
  from is left as it is: it is the same stage of the reference on both sides of every equation here.
-/
import proofs.«157300_j11587821765342_1_alg».proof.Proof.RefRead
import proofs.«157300_j11587821765342_1_alg».proof.Proof.GcnSpec

set_option maxRecDepth 16384

noncomputable section

open Idealize.ShloMosaic Idealize.ShloMosaic.ValueIdx

namespace Cert.ReferenceIdeal.Stages

open Cert.ReferenceIdeal Cert.ReferenceIdeal.ReadP

/-- An index whose coordinates are a and b is (a, b). -/
theorem mk2 {n0 n1 : ℕ} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- x · W0. -/
theorem dense0 (x0 : FVec Ideal S100000x128 .f32) (x2 : FVec Ideal S128x64 .f32) :
    val_main_v30 (F := Ideal) x0 x2 = GcnSpec.mm (M := 100000) (K := 128) (N := 64) x0 x2 := by
  funext i
  rw [val_main_v30_apply]
  unfold GcnSpec.mm
  refine Finset.sum_congr rfl fun k _ => ?_
  rw [mk2 (lidx_main_v30 i k) (i 0) k rfl rfl, mk2 (ridx_main_v30 i k) k (i 1) rfl rfl]

/-- max(agg0 + b0, 0) · W1, the bias row given as any [1, 64] row whose entries are b0's. -/
theorem dense1 (x0 : FVec Ideal S100000x128 .f32) (x1 : IVec S2x1600000 32) (x2 : FVec Ideal S128x64 .f32)
    (x3 : FVec Ideal S64 .f32) (x4 : FVec Ideal S64x64 .f32) (r : FVec Ideal ⟨2, ![1, 64]⟩ .f32)
    (hr : ∀ q : Fin 64, r (ix2 (n0 := 1) (n1 := 64) 0 q) = x3 (ix1 q)) :
    val_main_v48 (F := Ideal) x0 x1 x2 x3 x4
      = GcnSpec.mm (M := 100000) (K := 64) (N := 64) (GcnSpec.reluRow (val_main_v43 (F := Ideal) x0 x1 x2) r) x4 := by
  funext i
  rw [val_main_v48_apply]
  unfold GcnSpec.mm
  refine Finset.sum_congr rfl fun k _ => ?_
  rw [mk2 (lidx_main_v48 i k) (i 0) k rfl rfl, mk2 (ridx_main_v48 i k) k (i 1) rfl rfl]
  refine congrArg (fun t => t * x4 (ix2 (n0 := 64) (n1 := 64) k (i 1))) ?_
  rw [val_main_v47_apply, val_main_v46_apply, val_main_v45_apply, val_main_v44_apply, val_main_call1_v0_apply,
    val_main_call1_cst_apply]
  unfold GcnSpec.reluRow
  rw [hr k, show idx_main_v44 (idx_main_v45 (ix2 (n0 := 100000) (n1 := 64) (i 0) k)) = ix1 k from
    funext fun a => Fin.ext (by match a with | ⟨0, _⟩ => rfl)]
  rfl

/-- max(agg1 + b1, 0) · W2. -/
theorem dense2 (x0 : FVec Ideal S100000x128 .f32) (x1 : IVec S2x1600000 32) (x2 : FVec Ideal S128x64 .f32)
    (x3 : FVec Ideal S64 .f32) (x4 : FVec Ideal S64x64 .f32) (x5 : FVec Ideal S64 .f32) (x6 : FVec Ideal S64x40 .f32)
    (r : FVec Ideal ⟨2, ![1, 64]⟩ .f32) (hr : ∀ q : Fin 64, r (ix2 (n0 := 1) (n1 := 64) 0 q) = x5 (ix1 q)) :
    val_main_v66 (F := Ideal) x0 x1 x2 x3 x4 x5 x6
      = GcnSpec.mm (M := 100000) (K := 64) (N := 40) (GcnSpec.reluRow (val_main_v61 (F := Ideal) x0 x1 x2 x3 x4) r) x6 := by
  funext i
  rw [val_main_v66_apply]
  unfold GcnSpec.mm
  refine Finset.sum_congr rfl fun k _ => ?_
  rw [mk2 (lidx_main_v66 i k) (i 0) k rfl rfl, mk2 (ridx_main_v66 i k) k (i 1) rfl rfl]
  refine congrArg (fun t => t * x6 (ix2 (n0 := 64) (n1 := 40) k (i 1))) ?_
  rw [val_main_v65_apply, val_main_v64_apply, val_main_v63_apply, val_main_v62_apply, val_main_call2_v0_apply,
    val_main_call2_cst_apply]
  unfold GcnSpec.reluRow
  rw [hr k, show idx_main_v62 (idx_main_v63 (ix2 (n0 := 100000) (n1 := 64) (i 0) k)) = ix1 k from
    funext fun a => Fin.ext (by match a with | ⟨0, _⟩ => rfl)]
  rfl

/-- agg2 + b2. -/
theorem biased (x0 : FVec Ideal S100000x128 .f32) (x1 : IVec S2x1600000 32) (x2 : FVec Ideal S128x64 .f32)
    (x3 : FVec Ideal S64 .f32) (x4 : FVec Ideal S64x64 .f32) (x5 : FVec Ideal S64 .f32) (x6 : FVec Ideal S64x40 .f32)
    (x7 : FVec Ideal S40 .f32) (r : FVec Ideal ⟨2, ![1, 40]⟩ .f32)
    (hr : ∀ q : Fin 40, r (ix2 (n0 := 1) (n1 := 40) 0 q) = x7 (ix1 q)) :
    val_main_v82 (F := Ideal) x0 x1 x2 x3 x4 x5 x6 x7
      = GcnSpec.addRow (M := 100000) (K := 40) (val_main_v79 (F := Ideal) x0 x1 x2 x3 x4 x5 x6) r := by
  funext i
  rw [val_main_v82_apply, val_main_v81_apply, val_main_v80_apply]
  unfold GcnSpec.addRow
  rw [hr (i 1), show idx_main_v80 (idx_main_v81 i) = ix1 (i 1) from
    funext fun a => Fin.ext (by match a with | ⟨0, _⟩ => rfl)]
  rfl

end Cert.ReferenceIdeal.Stages

end
-- ==== Proof.BoundaryA.lean ====
/-
  The buffers after the first region and after the first aggregation.

  Region 0 leaves x · W0 in its result array and every other buffer as it found it. The stretch of host
  operations after it gathers the rows of that product by source, scales each by its edge weight and sums them
  by target: the reference's operations on the reference's product, so the aggregated matrix is the reference's
  stage; it also lays the first bias out as a [1, 64] row, and writes none of the buffers that later steps read.
-/
import proofs.«157300_j11587821765342_1_alg».proof.Proof.Boundary3
import proofs.«157300_j11587821765342_1_alg».proof.Proof.Region0
import proofs.«157300_j11587821765342_1_alg».proof.Proof.RefStages

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen

variable (m : (ℓ : Loc nD τ sig) → Buf (Elt Ideal) ℓ) (ρ : Dev nD → PrngReg)

/-- After region 0 the product buffer holds the reference's x · W0. -/
theorem prod4 (c : Dev nD) : W4 m ρ c (Proc.devRef .tc main_v30)
    = Cert.ReferenceIdeal.ReadP.val_main_v30 (F := Ideal) (m ((c : Thread nD τ).loc main_arg0)) (m ((c : Thread nD τ).loc main_arg2)) := by
  refine (W4_arr m ρ c 2).trans ((Cert.KernelIdeal.Tiled.final0 (V3 m ρ) c).trans ?_)
  rw [Cert.ReferenceIdeal.Stages.dense0]
  show GcnSpec.mm (M := 100000) (K := 128) (N := 64) (W3 m ρ c (Proc.devRef .tc main_arg0)) (W3 m ρ c (Proc.devRef .tc main_arg2)) = _
  rw [arg3_0, arg3_2]

theorem src4 (c : Dev nD) : W4 m ρ c (Proc.devRef .tc main_v3) = Cert.ReferenceIdeal.ReadP.val_main_v3 (F := Ideal) (m ((c : Thread nD τ).loc main_arg1)) :=
  (W4_of_ne m ρ c main_v3 (by decide)).trans (src3 m ρ c)
theorem dst4 (c : Dev nD) : W4 m ρ c (Proc.devRef .tc main_v6) = Cert.ReferenceIdeal.ReadP.val_main_v6 (F := Ideal) (m ((c : Thread nD τ).loc main_arg1)) :=
  (W4_of_ne m ρ c main_v6 (by decide)).trans (dst3 m ρ c)
theorem norm4 (c : Dev nD) : W4 m ρ c (Proc.devRef .tc main_v29) = Cert.ReferenceIdeal.ReadP.val_main_v29 (F := Ideal) (m ((c : Thread nD τ).loc main_arg1)) :=
  (W4_of_ne m ρ c main_v29 (by decide)).trans (norm3 m ρ c)
theorem arg4_3 (c : Dev nD) : W4 m ρ c (Proc.devRef .tc main_arg3) = m ((c : Thread nD τ).loc main_arg3) :=
  (W4_of_ne m ρ c main_arg3 (by decide)).trans (arg3_3 m ρ c)
theorem arg4_4 (c : Dev nD) : W4 m ρ c (Proc.devRef .tc main_arg4) = m ((c : Thread nD τ).loc main_arg4) :=
  (W4_of_ne m ρ c main_arg4 (by decide)).trans (arg3_4 m ρ c)
theorem arg4_5 (c : Dev nD) : W4 m ρ c (Proc.devRef .tc main_arg5) = m ((c : Thread nD τ).loc main_arg5) :=
  (W4_of_ne m ρ c main_arg5 (by decide)).trans (arg3_5 m ρ c)
theorem arg4_6 (c : Dev nD) : W4 m ρ c (Proc.devRef .tc main_arg6) = m ((c : Thread nD τ).loc main_arg6) :=
  (W4_of_ne m ρ c main_arg6 (by decide)).trans (arg3_6 m ρ c)
theorem arg4_7 (c : Dev nD) : W4 m ρ c (Proc.devRef .tc main_arg7) = m ((c : Thread nD τ).loc main_arg7) :=
  (W4_of_ne m ρ c main_arg7 (by decide)).trans (arg3_7 m ρ c)

/-- The first aggregation: the reference's stage. -/
theorem agg5 (c : Dev nD) : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) := by
  have h0 := prod4 m ρ c
  have h1 := src4 m ρ c
  have h2 := dst4 m ρ c
  have h3 := norm4 m ρ c
  show StableHlo.after hostOps1 (W4 m ρ c) (Proc.devRef .tc main_v43) = _
  generalize W4 m ρ c = W at *
  dsimp only [hostOps1]
  after_results_simp
  rw [h0, h1, h2, h3]
  rfl

/-- The first bias as a row. -/
theorem row5 (c : Dev nD) : W5 m ρ c (Proc.devRef .tc main_v44) = shapeCast S1x64 (m ((c : Thread nD τ).loc main_arg3)) shapeCasts_S64_S1x64 := by
  have h0 := arg4_3 m ρ c
  show StableHlo.after hostOps1 (W4 m ρ c) (Proc.devRef .tc main_v44) = _
  generalize W4 m ρ c = W at *
  dsimp only [hostOps1]
  after_results_simp
  rw [h0]
  rfl

theorem src5 (c : Dev nD) : W5 m ρ c (Proc.devRef .tc main_v3) = Cert.ReferenceIdeal.ReadP.val_main_v3 (F := Ideal) (m ((c : Thread nD τ).loc main_arg1)) := by
  have h0 := src4 m ρ c
  show StableHlo.after hostOps1 (W4 m ρ c) (Proc.devRef .tc main_v3) = _
  generalize W4 m ρ c = W at *
  dsimp only [hostOps1]
  after_results_simp
  exact h0

theorem dst5 (c : Dev nD) : W5 m ρ c (Proc.devRef .tc main_v6) = Cert.ReferenceIdeal.ReadP.val_main_v6 (F := Ideal) (m ((c : Thread nD τ).loc main_arg1)) := by
  have h0 := dst4 m ρ c
  show StableHlo.after hostOps1 (W4 m ρ c) (Proc.devRef .tc main_v6) = _
  generalize W4 m ρ c = W at *
  dsimp only [hostOps1]
  after_results_simp
  exact h0

theorem norm5 (c : Dev nD) : W5 m ρ c (Proc.devRef .tc main_v29) = Cert.ReferenceIdeal.ReadP.val_main_v29 (F := Ideal) (m ((c : Thread nD τ).loc main_arg1)) := by
  have h0 := norm4 m ρ c
  show StableHlo.after hostOps1 (W4 m ρ c) (Proc.devRef .tc main_v29) = _
  generalize W4 m ρ c = W at *
  dsimp only [hostOps1]
  after_results_simp
  exact h0

theorem arg5_4 (c : Dev nD) : W5 m ρ c (Proc.devRef .tc main_arg4) = m ((c : Thread nD τ).loc main_arg4) := by
  have h0 := arg4_4 m ρ c
  show StableHlo.after hostOps1 (W4 m ρ c) (Proc.devRef .tc main_arg4) = _
  generalize W4 m ρ c = W at *
  dsimp only [hostOps1]
  after_results_simp
  exact h0

theorem arg5_5 (c : Dev nD) : W5 m ρ c (Proc.devRef .tc main_arg5) = m ((c : Thread nD τ).loc main_arg5) := by
  have h0 := arg4_5 m ρ c
  show StableHlo.after hostOps1 (W4 m ρ c) (Proc.devRef .tc main_arg5) = _
  generalize W4 m ρ c = W at *
  dsimp only [hostOps1]
  after_results_simp
  exact h0

theorem arg5_6 (c : Dev nD) : W5 m ρ c (Proc.devRef .tc main_arg6) = m ((c : Thread nD τ).loc main_arg6) := by
  have h0 := arg4_6 m ρ c
  show StableHlo.after hostOps1 (W4 m ρ c) (Proc.devRef .tc main_arg6) = _
  generalize W4 m ρ c = W at *
  dsimp only [hostOps1]
  after_results_simp
  exact h0

theorem arg5_7 (c : Dev nD) : W5 m ρ c (Proc.devRef .tc main_arg7) = m ((c : Thread nD τ).loc main_arg7) := by
  have h0 := arg4_7 m ρ c
  show StableHlo.after hostOps1 (W4 m ρ c) (Proc.devRef .tc main_arg7) = _
  generalize W4 m ρ c = W at *
  dsimp only [hostOps1]
  after_results_simp
  exact h0

end Cert.KernelIdeal.Boundary

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.Region1.lean ====
/-
  A tiled step of the next layer: max(agg + b, 0) · W, ten blocks of 10000 rows.

  At grid point t the body adds the bias row to rows 10000·t … 10000·t + 9999 of the aggregated matrix, takes the
  positive part, multiplies by the whole weight matrix and stores the product as the same rows of the result; the
  MXU product into a zero accumulator is, entry by entry, the sum over the contracted axis. The ten row blocks
  tile the 100000 rows, so the result array ends holding max(agg + b, 0) · W. Stated for ANY contents of the
  buffers when the region is entered.
-/
import proofs.«157300_j11587821765342_1_alg».proof.Proof.Gen.KernelIdeal.Frame
import proofs.«157300_j11587821765342_1_alg».proof.Proof.LibMatmulIdx
import proofs.«157300_j11587821765342_1_alg».proof.Proof.LibRowOps
import proofs.«157300_j11587821765342_1_alg».proof.Proof.GcnSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiled1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

theorem dot_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, at entry (p, q) of the block: Σ_k max(x0[p,k] + x1[0,k], 0) · x2[k,q]. -/
theorem pay_apply (x0 : Vec Ideal S10000x64 .f32) (x1 : Vec Ideal S1x64 .f32) (x2 : Vec Ideal S64x64 .f32) (j : S10000x64.Idx) :
    k1_pay1 (F := Ideal) x0 x1 x2 j
      = ∑ k : Fin 64, max (x0 (ix2 (n0 := 10000) (n1 := 64) (j 0) k) + x1 (ix2 (n0 := 1) (n1 := 64) 0 k)) (Ideal.ofBits .f32 0x00000000#32)
          * x2 (ix2 (n0 := 64) (n1 := 64) k (j 1)) := by
  unfold k1_pay1
  refine (LibMatmulIdx.matmul2_apply (M := 10000) (K := 64) (N := 64) dot_S10000x64_S64x64_S10000x64_1_0_0_1_n_n rfl rfl
    dot_l0 (fun i q => dot_S10000x64_S64x64_S10000x64_1_0_0_1_n_n.lhsIdx_val_of_single rfl i q)
    (fun i q => dot_S10000x64_S64x64_S10000x64_1_0_0_1_n_n.rhsIdx_val_of_single rfl i q) dot_r1 none _ _ j).trans ?_
  refine Finset.sum_congr rfl fun k _ => ?_
  refine congrArg (fun t => t * x2 (ix2 (n0 := 64) (n1 := 64) k (j 1))) ?_
  show max (shapeCast S10000x64 x0 shapeCasts_S10000x64_S10000x64 (ix2 (n0 := 10000) (n1 := 64) (j 0) k)
      + broadcastTo S10000x64 (shapeCast S1x64 x1 shapeCasts_S1x64_S1x64) broadcasts_S1x64_S10000x64 (ix2 (n0 := 10000) (n1 := 64) (j 0) k)) _ = _
  have hb : broadcastTo S10000x64 (shapeCast S1x64 x1 shapeCasts_S1x64_S1x64) broadcasts_S1x64_S10000x64 (ix2 (n0 := 10000) (n1 := 64) (j 0) k)
      = shapeCast S1x64 x1 shapeCasts_S1x64_S1x64 (ix2 (n0 := 1) (n1 := 64) 0 k) :=
    LibRowOps.broadcastTo_row_apply (a := 10000) (b := 64) _ _ (j 0) k
  rw [shapeCast_self, hb, shapeCast_self]
  rfl

/-! ## The blocks as rows of the arrays -/

/-- The printed index maps over the grid: the row blocks of the aggregated matrix and of the result move with the
    point, the bias row and the weights stay. -/
theorem idxs : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the aggregated matrix, at (p, k), is the matrix at row 10000·t + p. -/
theorem ablk_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v43 : S100000x64.Idx → Elt Ideal .f32) i := by
  obtain ⟨e0, e1, -⟩ := idxs t
  unfold iblk1
  rw [View.read_apply]
  show V c main_v43 _ = V c main_v43 _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The block of the bias row is the row. -/
theorem rblk_apply (c : Dev nD) (t : Fin cfg1.N) (y : S1x64.Idx) :
    (iblk1 V c 1 t : Vec Ideal S1x64 .f32) y = (V c main_v44 : S1x64.Idx → Elt Ideal .f32) y := by
  obtain ⟨-, -, e0, e1, -⟩ := idxs t
  unfold iblk1
  rw [View.read_apply]
  show V c main_v44 _ = V c main_v44 _
  congr 1
  funext a
  apply Fin.ext
  match a with
  | ⟨0, _⟩ => show win1_1.index t 0 * 1 + 1 * (y 0).val = (y 0).val; rw [e0]; omega
  | ⟨1, _⟩ => show win1_1.index t 1 * 64 + 1 * (y 1).val = (y 1).val; rw [e1]; omega

/-- The block of the weights is the weight matrix. -/
theorem wblk_apply (c : Dev nD) (t : Fin cfg1.N) (y : S64x64.Idx) :
    (iblk1 V c 2 t : Vec Ideal S64x64 .f32) y = (V c main_arg4 : S64x64.Idx → Elt Ideal .f32) y := by
  obtain ⟨-, -, -, -, e0, e1, -⟩ := idxs t
  unfold iblk1
  rw [View.read_apply]
  show V c main_arg4 _ = V c main_arg4 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-! ## What a point writes back, the cover, the array -/

/-- The layer's dense step of the arrays as the region finds them. -/
abbrev whole (c : Dev nD) : FVec Ideal ⟨2, ![100000, 64]⟩ .f32 :=
  GcnSpec.mm (M := 100000) (K := 64) (N := 64) (GcnSpec.reluRow (M := 100000) (K := 64) (V c main_v43) (V c main_v44)) (V c main_arg4)

/-- WHAT POINT t WRITES BACK is block t of max(agg + b, 0) · W. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨-, -, -, -, -, -, e0, e1⟩ := idxs t
  funext j
  rw [View.read_apply]
  refine (pay_apply _ _ _ j).trans ?_
  unfold whole GcnSpec.mm GcnSpec.reluRow
  refine Finset.sum_congr rfl fun k _ => ?_
  have hj0 : (j 0).val < 10000 := (j 0).isLt
  have hj1 : (j 1).val < 64 := (j 1).isLt
  congr 1
  · congr 1
    congr 1
    · refine ablk_apply V c t _ _ ?_ rfl
      show win1_3.index t 0 * 10000 + 1 * (j 0).val = t.val * 10000 + (j 0).val
      rw [e0]; omega
    · exact rblk_apply V c t _
  · refine (wblk_apply V c t _).trans ?_
    congr 1
    funext a
    apply Fin.ext
    match a with
    | ⟨0, _⟩ => rfl
    | ⟨1, _⟩ => show (j 1).val = win1_3.index t 1 * 64 + 1 * (j 1).val; rw [e1]; omega

/-- An index of the result is in point t's block iff its row is one of the block's. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row r of the result lies in the block of point r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  rw [mem_blk]
  obtain ⟨-, -, -, -, -, -, e0, e1⟩ := idxs ⟨(i 0).val / 10000, by rw [hN]; omega⟩
  intro a
  match a with
  | ⟨0, _⟩ => show win1_3.index _ 0 * 10000 ≤ (i 0).val ∧ (i 0).val < win1_3.index _ 0 * 10000 + 10000; rw [e0]; show (i 0).val / 10000 * 10000 ≤ _ ∧ _ < (i 0).val / 10000 * 10000 + 10000; omega
  | ⟨1, _⟩ => show win1_3.index _ 1 * 64 ≤ (i 1).val ∧ (i 1).val < win1_3.index _ 1 * 64 + 64; rw [e1]; omega

/-- THE ARRAY after the region: max(agg + b, 0) · W of the arrays as the region found them. -/
theorem final (c : Dev nD) : (dat1 V c).arrAt 3 cfg1.N = whole V c :=
  (dat1 V c).arrAt_eq_of_cover 3 _ (fun t _ => flushed_eq V c t) cover

end Cert.KernelIdeal.Tiled1

end
-- ==== Proof.BoundaryB.lean ====
/-
  The buffers after the second region and after the second aggregation.

  Region 1 leaves max(agg0 + b0, 0) · W1 in its result array — the reference's second product, its bias row being
  the vector b0 laid out as a row — and every other buffer as it found it. The stretch after it aggregates that
  product exactly as the reference does, lays the second bias out as a row, and writes none of the buffers that
  later steps read.
-/
import proofs.«157300_j11587821765342_1_alg».proof.Proof.BoundaryA
import proofs.«157300_j11587821765342_1_alg».proof.Proof.Region1
import proofs.«157300_j11587821765342_1_alg».proof.Proof.LibRowOps

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen

variable (m : (ℓ : Loc nD τ sig) → Buf (Elt Ideal) ℓ) (ρ : Dev nD → PrngReg)

/-- After region 1 the product buffer holds the reference's max(agg0 + b0, 0) · W1. -/
theorem prod6 (c : Dev nD) : W6 m ρ c (Proc.devRef .tc main_v45)
    = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Cert.KernelIdeal.Tiled1.final (V5 m ρ) c).trans ?_)
  show GcnSpec.mm (M := 100000) (K := 64) (N := 64) (GcnSpec.reluRow (M := 100000) (K := 64) (W5 m ρ c (Proc.devRef .tc main_v43)) (W5 m ρ c (Proc.devRef .tc main_v44)))
    (W5 m ρ c (Proc.devRef .tc main_arg4)) = _
  rw [agg5, row5, arg5_4]
  exact (Cert.ReferenceIdeal.Stages.dense1 _ _ _ _ _ _ fun q => LibRowOps.shapeCast_row_apply (b := 64) _ _ 0 q).symm

theorem src6 (c : Dev nD) : W6 m ρ c (Proc.devRef .tc main_v3) = Cert.ReferenceIdeal.ReadP.val_main_v3 (F := Ideal) (m ((c : Thread nD τ).loc main_arg1)) :=
  (W6_of_ne m ρ c main_v3 (by decide)).trans (src5 m ρ c)
theorem dst6 (c : Dev nD) : W6 m ρ c (Proc.devRef .tc main_v6) = Cert.ReferenceIdeal.ReadP.val_main_v6 (F := Ideal) (m ((c : Thread nD τ).loc main_arg1)) :=
  (W6_of_ne m ρ c main_v6 (by decide)).trans (dst5 m ρ c)
theorem norm6 (c : Dev nD) : W6 m ρ c (Proc.devRef .tc main_v29) = Cert.ReferenceIdeal.ReadP.val_main_v29 (F := Ideal) (m ((c : Thread nD τ).loc main_arg1)) :=
  (W6_of_ne m ρ c main_v29 (by decide)).trans (norm5 m ρ c)
theorem arg6_5 (c : Dev nD) : W6 m ρ c (Proc.devRef .tc main_arg5) = m ((c : Thread nD τ).loc main_arg5) :=
  (W6_of_ne m ρ c main_arg5 (by decide)).trans (arg5_5 m ρ c)
theorem arg6_6 (c : Dev nD) : W6 m ρ c (Proc.devRef .tc main_arg6) = m ((c : Thread nD τ).loc main_arg6) :=
  (W6_of_ne m ρ c main_arg6 (by decide)).trans (arg5_6 m ρ c)
theorem arg6_7 (c : Dev nD) : W6 m ρ c (Proc.devRef .tc main_arg7) = m ((c : Thread nD τ).loc main_arg7) :=
  (W6_of_ne m ρ c main_arg7 (by decide)).trans (arg5_7 m ρ c)

/-- The second aggregation: the reference's stage. -/
theorem agg7 (c : Dev nD) : W7 m ρ c (Proc.devRef .tc main_v58) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h0 := prod6 m ρ c
  have h1 := src6 m ρ c
  have h2 := dst6 m ρ c
  have h3 := norm6 m ρ c
  show StableHlo.after hostOps2 (W6 m ρ c) (Proc.devRef .tc main_v58) = _
  generalize W6 m ρ c = W at *
  dsimp only [hostOps2]
  after_results_simp
  rw [h0, h1, h2, h3]
  rfl

/-- The second bias as a row. -/
theorem row7 (c : Dev nD) : W7 m ρ c (Proc.devRef .tc main_v59) = shapeCast S1x64 (m ((c : Thread nD τ).loc main_arg5)) shapeCasts_S64_S1x64 := by
  have h0 := arg6_5 m ρ c
  show StableHlo.after hostOps2 (W6 m ρ c) (Proc.devRef .tc main_v59) = _
  generalize W6 m ρ c = W at *
  dsimp only [hostOps2]
  after_results_simp
  rw [h0]
  rfl

theorem src7 (c : Dev nD) : W7 m ρ c (Proc.devRef .tc main_v3) = Cert.ReferenceIdeal.ReadP.val_main_v3 (F := Ideal) (m ((c : Thread nD τ).loc main_arg1)) := by
  have h0 := src6 m ρ c
  show StableHlo.after hostOps2 (W6 m ρ c) (Proc.devRef .tc main_v3) = _
  generalize W6 m ρ c = W at *
  dsimp only [hostOps2]
  after_results_simp
  exact h0

theorem dst7 (c : Dev nD) : W7 m ρ c (Proc.devRef .tc main_v6) = Cert.ReferenceIdeal.ReadP.val_main_v6 (F := Ideal) (m ((c : Thread nD τ).loc main_arg1)) := by
  have h0 := dst6 m ρ c
  show StableHlo.after hostOps2 (W6 m ρ c) (Proc.devRef .tc main_v6) = _
  generalize W6 m ρ c = W at *
  dsimp only [hostOps2]
  after_results_simp
  exact h0

theorem norm7 (c : Dev nD) : W7 m ρ c (Proc.devRef .tc main_v29) = Cert.ReferenceIdeal.ReadP.val_main_v29 (F := Ideal) (m ((c : Thread nD τ).loc main_arg1)) := by
  have h0 := norm6 m ρ c
  show StableHlo.after hostOps2 (W6 m ρ c) (Proc.devRef .tc main_v29) = _
  generalize W6 m ρ c = W at *
  dsimp only [hostOps2]
  after_results_simp
  exact h0

theorem arg7_6 (c : Dev nD) : W7 m ρ c (Proc.devRef .tc main_arg6) = m ((c : Thread nD τ).loc main_arg6) := by
  have h0 := arg6_6 m ρ c
  show StableHlo.after hostOps2 (W6 m ρ c) (Proc.devRef .tc main_arg6) = _
  generalize W6 m ρ c = W at *
  dsimp only [hostOps2]
  after_results_simp
  exact h0

theorem arg7_7 (c : Dev nD) : W7 m ρ c (Proc.devRef .tc main_arg7) = m ((c : Thread nD τ).loc main_arg7) := by
  have h0 := arg6_7 m ρ c
  show StableHlo.after hostOps2 (W6 m ρ c) (Proc.devRef .tc main_arg7) = _
  generalize W6 m ρ c = W at *
  dsimp only [hostOps2]
  after_results_simp
  exact h0

end Cert.KernelIdeal.Boundary

end
-- ==== Proof.Region2.lean ====
/-
  A tiled step of the next layer: max(agg + b, 0) · W, ten blocks of 10000 rows.

  At grid point t the body adds the bias row to rows 10000·t … 10000·t + 9999 of the aggregated matrix, takes the
  positive part, multiplies by the whole weight matrix and stores the product as the same rows of the result; the
  MXU product into a zero accumulator is, entry by entry, the sum over the contracted axis. The ten row blocks
  tile the 100000 rows, so the result array ends holding max(agg + b, 0) · W. Stated for ANY contents of the
  buffers when the region is entered.
-/
import proofs.«157300_j11587821765342_1_alg».proof.Proof.Gen.KernelIdeal.Frame
import proofs.«157300_j11587821765342_1_alg».proof.Proof.LibMatmulIdx
import proofs.«157300_j11587821765342_1_alg».proof.Proof.LibRowOps
import proofs.«157300_j11587821765342_1_alg».proof.Proof.GcnSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiled2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

theorem dot_l0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem dot_r1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- What the body stores, at entry (p, q) of the block: Σ_k max(x0[p,k] + x1[0,k], 0) · x2[k,q]. -/
theorem pay_apply (x0 : Vec Ideal S10000x64 .f32) (x1 : Vec Ideal S1x64 .f32) (x2 : Vec Ideal S64x40 .f32) (j : S10000x40.Idx) :
    k2_pay1 (F := Ideal) x0 x1 x2 j
      = ∑ k : Fin 64, max (x0 (ix2 (n0 := 10000) (n1 := 64) (j 0) k) + x1 (ix2 (n0 := 1) (n1 := 64) 0 k)) (Ideal.ofBits .f32 0x00000000#32)
          * x2 (ix2 (n0 := 64) (n1 := 40) k (j 1)) := by
  unfold k2_pay1
  refine (LibMatmulIdx.matmul2_apply (M := 10000) (K := 64) (N := 40) dot_S10000x64_S64x40_S10000x40_1_0_0_1_n_n rfl rfl
    dot_l0 (fun i q => dot_S10000x64_S64x40_S10000x40_1_0_0_1_n_n.lhsIdx_val_of_single rfl i q)
    (fun i q => dot_S10000x64_S64x40_S10000x40_1_0_0_1_n_n.rhsIdx_val_of_single rfl i q) dot_r1 none _ _ j).trans ?_
  refine Finset.sum_congr rfl fun k _ => ?_
  refine congrArg (fun t => t * x2 (ix2 (n0 := 64) (n1 := 40) k (j 1))) ?_
  show max (shapeCast S10000x64 x0 shapeCasts_S10000x64_S10000x64 (ix2 (n0 := 10000) (n1 := 64) (j 0) k)
      + broadcastTo S10000x64 (shapeCast S1x64 x1 shapeCasts_S1x64_S1x64) broadcasts_S1x64_S10000x64 (ix2 (n0 := 10000) (n1 := 64) (j 0) k)) _ = _
  have hb : broadcastTo S10000x64 (shapeCast S1x64 x1 shapeCasts_S1x64_S1x64) broadcasts_S1x64_S10000x64 (ix2 (n0 := 10000) (n1 := 64) (j 0) k)
      = shapeCast S1x64 x1 shapeCasts_S1x64_S1x64 (ix2 (n0 := 1) (n1 := 64) 0 k) :=
    LibRowOps.broadcastTo_row_apply (a := 10000) (b := 64) _ _ (j 0) k
  rw [shapeCast_self, hb, shapeCast_self]
  rfl

/-! ## The blocks as rows of the arrays -/

/-- The printed index maps over the grid: the row blocks of the aggregated matrix and of the result move with the
    point, the bias row and the weights stay. -/
theorem idxs : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block t of the aggregated matrix, at (p, k), is the matrix at row 10000·t + p. -/
theorem ablk_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v58 : S100000x64.Idx → Elt Ideal .f32) i := by
  obtain ⟨e0, e1, -⟩ := idxs t
  unfold iblk2
  rw [View.read_apply]
  show V c main_v58 _ = V c main_v58 _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The block of the bias row is the row. -/
theorem rblk_apply (c : Dev nD) (t : Fin cfg2.N) (y : S1x64.Idx) :
    (iblk2 V c 1 t : Vec Ideal S1x64 .f32) y = (V c main_v59 : S1x64.Idx → Elt Ideal .f32) y := by
  obtain ⟨-, -, e0, e1, -⟩ := idxs t
  unfold iblk2
  rw [View.read_apply]
  show V c main_v59 _ = V c main_v59 _
  congr 1
  funext a
  apply Fin.ext
  match a with
  | ⟨0, _⟩ => show win2_1.index t 0 * 1 + 1 * (y 0).val = (y 0).val; rw [e0]; omega
  | ⟨1, _⟩ => show win2_1.index t 1 * 64 + 1 * (y 1).val = (y 1).val; rw [e1]; omega

/-- The block of the weights is the weight matrix. -/
theorem wblk_apply (c : Dev nD) (t : Fin cfg2.N) (y : S64x40.Idx) :
    (iblk2 V c 2 t : Vec Ideal S64x40 .f32) y = (V c main_arg6 : S64x40.Idx → Elt Ideal .f32) y := by
  obtain ⟨-, -, -, -, e0, e1, -⟩ := idxs t
  unfold iblk2
  rw [View.read_apply]
  show V c main_arg6 _ = V c main_arg6 _
  congr 1
  funext a
  apply Fin.ext
  match a with
  | ⟨0, _⟩ => show win2_2.index t 0 * 64 + 1 * (y 0).val = (y 0).val; rw [e0]; omega
  | ⟨1, _⟩ => show win2_2.index t 1 * 40 + 1 * (y 1).val = (y 1).val; rw [e1]; omega

/-! ## What a point writes back, the cover, the array -/

/-- The layer's dense step of the arrays as the region finds them. -/
abbrev whole (c : Dev nD) : FVec Ideal ⟨2, ![100000, 40]⟩ .f32 :=
  GcnSpec.mm (M := 100000) (K := 64) (N := 40) (GcnSpec.reluRow (M := 100000) (K := 64) (V c main_v58) (V c main_v59)) (V c main_arg6)

/-- WHAT POINT t WRITES BACK is block t of max(agg + b, 0) · W. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x40) hz]
  obtain ⟨-, -, -, -, -, -, e0, e1⟩ := idxs t
  funext j
  rw [View.read_apply]
  refine (pay_apply _ _ _ j).trans ?_
  unfold whole GcnSpec.mm GcnSpec.reluRow
  refine Finset.sum_congr rfl fun k _ => ?_
  have hj0 : (j 0).val < 10000 := (j 0).isLt
  have hj1 : (j 1).val < 40 := (j 1).isLt
  congr 1
  · congr 1
    congr 1
    · refine ablk_apply V c t _ _ ?_ rfl
      show win2_3.index t 0 * 10000 + 1 * (j 0).val = t.val * 10000 + (j 0).val
      rw [e0]; omega
    · exact rblk_apply V c t _
  · refine (wblk_apply V c t _).trans ?_
    congr 1
    funext a
    apply Fin.ext
    match a with
    | ⟨0, _⟩ => rfl
    | ⟨1, _⟩ => show (j 1).val = win2_3.index t 1 * 40 + 1 * (j 1).val; rw [e1]; omega

/-- An index of the result is in point t's block iff its row is one of the block's. -/
theorem mem_blk (t : Fin cfg2.N) (i : S100000x40.Idx) :
    i ∈ ((cfg2.win 3).blk t).view.set ↔ ∀ a : Fin 2, win2_3.index t a * S10000x40.size a ≤ (i a).val ∧ (i a).val < win2_3.index t a * S10000x40.size a + S10000x40.size a := by
  show i ∈ ((View.whole main_v60).slice (win2_3.rect t)).set ↔ _
  rw [View.set_slice_whole, Rect.mem_set_unit]
  exact Iff.rfl

/-- Row r of the result lies in the block of point r / 10000. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 10 := N_2
  refine ⟨⟨(i 0).val / 10000, by rw [hN]; omega⟩, flush2_3 _, ?_⟩
  rw [mem_blk]
  obtain ⟨-, -, -, -, -, -, e0, e1⟩ := idxs ⟨(i 0).val / 10000, by rw [hN]; omega⟩
  intro a
  match a with
  | ⟨0, _⟩ => show win2_3.index _ 0 * 10000 ≤ (i 0).val ∧ (i 0).val < win2_3.index _ 0 * 10000 + 10000; rw [e0]; show (i 0).val / 10000 * 10000 ≤ _ ∧ _ < (i 0).val / 10000 * 10000 + 10000; omega
  | ⟨1, _⟩ => show win2_3.index _ 1 * 40 ≤ (i 1).val ∧ (i 1).val < win2_3.index _ 1 * 40 + 40; rw [e1]; omega

/-- THE ARRAY after the region: max(agg + b, 0) · W of the arrays as the region found them. -/
theorem final (c : Dev nD) : (dat2 V c).arrAt 3 cfg2.N = whole V c :=
  (dat2 V c).arrAt_eq_of_cover 3 _ (fun t _ => flushed_eq V c t) cover

end Cert.KernelIdeal.Tiled2

end
-- ==== Proof.Region3.lean ====
/-
  The last tiled step: agg + b, ten blocks of 10000 rows.

  At grid point t the body adds the bias row to rows 10000·t … 10000·t + 9999 of the aggregated matrix and stores
  them as the same rows of the result. The ten row blocks tile the 100000 rows, so the result array ends holding
  agg[i,j] + b[0,j]. Stated for ANY contents of the buffers when the region is entered.
-/
import proofs.«157300_j11587821765342_1_alg».proof.Proof.Gen.KernelIdeal.Frame
import proofs.«157300_j11587821765342_1_alg».proof.Proof.LibRowOps
import proofs.«157300_j11587821765342_1_alg».proof.Proof.GcnSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiled3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, q) of the block: x0[p,q] + x1[0,q]. -/
theorem pay_apply (x0 : Vec Ideal S10000x40 .f32) (x1 : Vec Ideal S1x40 .f32) (j : S10000x40.Idx) :
    k3_pay1 (F := Ideal) x0 x1 j = x0 j + x1 (ix2 (n0 := 1) (n1 := 40) 0 (j 1)) := by
  unfold k3_pay1
  show shapeCast S10000x40 x0 shapeCasts_S10000x40_S10000x40 j
      + broadcastTo S10000x40 (shapeCast S1x40 x1 shapeCasts_S1x40_S1x40) broadcasts_S1x40_S10000x40 j = _
  have hb : broadcastTo S10000x40 (shapeCast S1x40 x1 shapeCasts_S1x40_S1x40) broadcasts_S1x40_S10000x40 j
      = shapeCast S1x40 x1 shapeCasts_S1x40_S1x40 (ix2 (n0 := 1) (n1 := 40) 0 (j 1)) :=
    (congrArg (broadcastTo S10000x40 (shapeCast S1x40 x1 shapeCasts_S1x40_S1x40) broadcasts_S1x40_S10000x40) (eq_ix2 j)).trans
      (LibRowOps.broadcastTo_row_apply (a := 10000) (b := 40) _ _ (j 0) (j 1))
  rw [shapeCast_self, hb, shapeCast_self]

/-- The printed index maps over the grid: the row blocks of the aggregated matrix and of the result move with the
    point, the bias row stays. -/
theorem idxs : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the aggregated matrix, at (p, q), is the matrix at row 10000·t + p. -/
theorem ablk_apply (c : Dev nD) (t : Fin cfg3.N) (y : S10000x40.Idx) (i : S100000x40.Idx)
    (h0 : (i 0).val = t.val * 10000 + (y 0).val) (h1 : (i 1).val = (y 1).val) :
    (iblk3 V c 0 t : Vec Ideal S10000x40 .f32) y = (V c main_v73 : S100000x40.Idx → Elt Ideal .f32) i := by
  obtain ⟨e0, e1, -⟩ := idxs t
  unfold iblk3
  rw [View.read_apply]
  show V c main_v73 _ = V c main_v73 _
  congr 1
  funext a
  apply Fin.ext
  match a with
  | ⟨0, _⟩ => show win3_0.index t 0 * 10000 + 1 * (y 0).val = (i 0).val; rw [e0, h0]; omega
  | ⟨1, _⟩ => show win3_0.index t 1 * 40 + 1 * (y 1).val = (i 1).val; rw [e1, h1]; omega

/-- The block of the bias row is the row. -/
theorem rblk_apply (c : Dev nD) (t : Fin cfg3.N) (y : S1x40.Idx) :
    (iblk3 V c 1 t : Vec Ideal S1x40 .f32) y = (V c main_v74 : S1x40.Idx → Elt Ideal .f32) y := by
  obtain ⟨-, -, e0, e1, -⟩ := idxs t
  unfold iblk3
  rw [View.read_apply]
  show V c main_v74 _ = V c main_v74 _
  congr 1
  funext a
  apply Fin.ext
  match a with
  | ⟨0, _⟩ => show win3_1.index t 0 * 1 + 1 * (y 0).val = (y 0).val; rw [e0]; omega
  | ⟨1, _⟩ => show win3_1.index t 1 * 40 + 1 * (y 1).val = (y 1).val; rw [e1]; omega

/-- The last step of the arrays as the region finds them. -/
abbrev whole (c : Dev nD) : FVec Ideal ⟨2, ![100000, 40]⟩ .f32 :=
  GcnSpec.addRow (M := 100000) (K := 40) (V c main_v73) (V c main_v74)

/-- WHAT POINT t WRITES BACK is block t of agg + b. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero hz]
  simp only [View.ld_unit_zero (S := S10000x40) hz, View.ld_unit_zero (S := S1x40) hz]
  obtain ⟨-, -, -, -, e0, e1⟩ := idxs t
  funext j
  rw [View.read_apply]
  refine (pay_apply _ _ j).trans ?_
  unfold whole GcnSpec.addRow
  have hj0 : (j 0).val < 10000 := (j 0).isLt
  have hj1 : (j 1).val < 40 := (j 1).isLt
  refine congrArg₂ (fun a b => a + b) ?_ ?_
  · refine ablk_apply V c t _ _ ?_ ?_
    · show win3_2.index t 0 * 10000 + 1 * (j 0).val = t.val * 10000 + (j 0).val
      rw [e0]; omega
    · show win3_2.index t 1 * 40 + 1 * (j 1).val = (j 1).val
      rw [e1]; omega
  · refine (rblk_apply V c t _).trans (congrArg (V c main_v74 : S1x40.Idx → Elt Ideal .f32) ?_)
    funext a
    apply Fin.ext
    match a with
    | ⟨0, _⟩ => rfl
    | ⟨1, _⟩ => show (j 1).val = win3_2.index t 1 * 40 + 1 * (j 1).val; rw [e1]; omega

/-- An index of the result is in point t's block iff its row is one of the block's. -/
theorem mem_blk (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v75).slice (win3_2.rect t)).set ↔ _
  rw [View.set_slice_whole, Rect.mem_set_unit]
  exact Iff.rfl

/-- Row r of the result lies in the block of point r / 10000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 10 := N_3
  refine ⟨⟨(i 0).val / 10000, by rw [hN]; omega⟩, flush3_2 _, ?_⟩
  rw [mem_blk]
  obtain ⟨-, -, -, -, e0, e1⟩ := idxs ⟨(i 0).val / 10000, by rw [hN]; omega⟩
  intro a
  match a with
  | ⟨0, _⟩ => show win3_2.index _ 0 * 10000 ≤ (i 0).val ∧ (i 0).val < win3_2.index _ 0 * 10000 + 10000; rw [e0]; show (i 0).val / 10000 * 10000 ≤ _ ∧ _ < (i 0).val / 10000 * 10000 + 10000; omega
  | ⟨1, _⟩ => show win3_2.index _ 1 * 40 ≤ (i 1).val ∧ (i 1).val < win3_2.index _ 1 * 40 + 40; rw [e1]; omega

/-- THE ARRAY after the region: agg + b of the arrays as the region found them. -/
theorem final (c : Dev nD) : (dat3 V c).arrAt 2 cfg3.N = whole V c :=
  (dat3 V c).arrAt_eq_of_cover 2 _ (fun t _ => flushed_eq V c t) cover

end Cert.KernelIdeal.Tiled3

end
-- ==== Proof.BoundaryC.lean ====
/-
  The buffers after the third region, after the third aggregation and after the last region: the result.

  Region 2 leaves max(agg1 + b1, 0) · W2, the reference's third product; the stretch after it aggregates that
  product as the reference does and lays the last bias out as a row; region 3 adds the row to every row. So the
  result buffer ends holding the reference's result, as a function of the eight arguments.
-/
import proofs.«157300_j11587821765342_1_alg».proof.Proof.BoundaryB
import proofs.«157300_j11587821765342_1_alg».proof.Proof.Region2
import proofs.«157300_j11587821765342_1_alg».proof.Proof.Region3

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen

variable (m : (ℓ : Loc nD τ sig) → Buf (Elt Ideal) ℓ) (ρ : Dev nD → PrngReg)

/-- After region 2 the product buffer holds the reference's max(agg1 + b1, 0) · W2. -/
theorem prod8 (c : Dev nD) : W8 m ρ c (Proc.devRef .tc main_v60)
    = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Cert.KernelIdeal.Tiled2.final (V7 m ρ) c).trans ?_)
  show GcnSpec.mm (M := 100000) (K := 64) (N := 40) (GcnSpec.reluRow (M := 100000) (K := 64) (W7 m ρ c (Proc.devRef .tc main_v58)) (W7 m ρ c (Proc.devRef .tc main_v59)))
    (W7 m ρ c (Proc.devRef .tc main_arg6)) = _
  rw [agg7, row7, arg7_6]
  exact (Cert.ReferenceIdeal.Stages.dense2 _ _ _ _ _ _ _ _ fun q => LibRowOps.shapeCast_row_apply (b := 64) _ _ 0 q).symm

theorem src8 (c : Dev nD) : W8 m ρ c (Proc.devRef .tc main_v3) = Cert.ReferenceIdeal.ReadP.val_main_v3 (F := Ideal) (m ((c : Thread nD τ).loc main_arg1)) :=
  (W8_of_ne m ρ c main_v3 (by decide)).trans (src7 m ρ c)
theorem dst8 (c : Dev nD) : W8 m ρ c (Proc.devRef .tc main_v6) = Cert.ReferenceIdeal.ReadP.val_main_v6 (F := Ideal) (m ((c : Thread nD τ).loc main_arg1)) :=
  (W8_of_ne m ρ c main_v6 (by decide)).trans (dst7 m ρ c)
theorem norm8 (c : Dev nD) : W8 m ρ c (Proc.devRef .tc main_v29) = Cert.ReferenceIdeal.ReadP.val_main_v29 (F := Ideal) (m ((c : Thread nD τ).loc main_arg1)) :=
  (W8_of_ne m ρ c main_v29 (by decide)).trans (norm7 m ρ c)
theorem arg8_7 (c : Dev nD) : W8 m ρ c (Proc.devRef .tc main_arg7) = m ((c : Thread nD τ).loc main_arg7) :=
  (W8_of_ne m ρ c main_arg7 (by decide)).trans (arg7_7 m ρ c)

/-- The third aggregation: the reference's stage. -/
theorem agg9 (c : Dev nD) : W9 m ρ c (Proc.devRef .tc main_v73) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h0 := prod8 m ρ c
  have h1 := src8 m ρ c
  have h2 := dst8 m ρ c
  have h3 := norm8 m ρ c
  show StableHlo.after hostOps3 (W8 m ρ c) (Proc.devRef .tc main_v73) = _
  generalize W8 m ρ c = W at *
  dsimp only [hostOps3]
  after_results_simp
  rw [h0, h1, h2, h3]
  rfl

/-- The last bias as a row. -/
theorem row9 (c : Dev nD) : W9 m ρ c (Proc.devRef .tc main_v74) = shapeCast S1x40 (m ((c : Thread nD τ).loc main_arg7)) shapeCasts_S40_S1x40 := by
  have h0 := arg8_7 m ρ c
  show StableHlo.after hostOps3 (W8 m ρ c) (Proc.devRef .tc main_v74) = _
  generalize W8 m ρ c = W at *
  dsimp only [hostOps3]
  after_results_simp
  rw [h0]
  rfl

/-- THE RESULT: after region 3 the result buffer holds the reference's result of the eight arguments. -/
theorem result10 (c : Dev nD) : W10 m ρ c (Proc.devRef .tc main_v75)
    = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((Cert.KernelIdeal.Tiled3.final (V9 m ρ) c).trans ?_)
  show GcnSpec.addRow (M := 100000) (K := 40) (W9 m ρ c (Proc.devRef .tc main_v73)) (W9 m ρ c (Proc.devRef .tc main_v74)) = _
  rw [agg9, row9]
  exact (Cert.ReferenceIdeal.Stages.biased _ _ _ _ _ _ _ _ _ fun q => LibRowOps.shapeCast_row_apply (b := 40) _ _ 0 q).symm

end Cert.KernelIdeal.Boundary

end
-- ==== Proof.lean ====
/-
  A three-layer graph convolution, its three dense products and its bias steps tiled into four regions of ten
  row blocks each, against the same network written with whole-array operations.

  Both programs compute, from the edge list, the index columns (edges, then a self loop per node) and the edge
  weights d^(-1/2)[src] · d^(-1/2)[dst]; each layer multiplies by its weights, gathers rows by source, scales
  them by the edge weight, sums them by target, and adds its bias, with the positive part between layers. The
  kernel's program does the products — and the bias and positive part that precede the second and third — in
  tiled regions; at exact arithmetic a tiled product into a zero accumulator is the whole product, entry by
  entry the sum over the contracted axis, and the rounding of the factors to bfloat16 is the identity. Every
  other operation is the same operation of the same operands in both programs.

  The kernel program's run is read boundary by boundary (Proof/KernelRun.lean, Proof/Boundary3.lean,
  BoundaryA/B/C.lean): after each stretch of host operations and after each region (Proof/Region0 … Region3.lean)
  the buffers that matter hold the reference's stages of the same arguments (Proof/RefStages.lean,
  Proof/GcnSpec.lean), so the result buffer ends at the reference's result. No property of the inputs is used
  beyond their being the same for both programs: no law that needs finiteness is applied.
-/
import proofs.«157300_j11587821765342_1_alg».proof.Defs
import proofs.«157300_j11587821765342_1_alg».proof.Proof.Gen.Kernel
import proofs.«157300_j11587821765342_1_alg».proof.Proof.Gen.Kernel.Frame
import proofs.«157300_j11587821765342_1_alg».proof.Proof.Gen.KernelIdeal
import proofs.«157300_j11587821765342_1_alg».proof.Proof.Gen.KernelIdeal.Frame
import proofs.«157300_j11587821765342_1_alg».proof.Proof.Gen.ReferenceIdeal
import proofs.«157300_j11587821765342_1_alg».proof.Proof.Gen.Pre_finite_inputs
import proofs.«157300_j11587821765342_1_alg».proof.Proof.RefRun
import proofs.«157300_j11587821765342_1_alg».proof.Proof.RefRead
import proofs.«157300_j11587821765342_1_alg».proof.Proof.KernelRun
import proofs.«157300_j11587821765342_1_alg».proof.Proof.BoundaryC
import Idealize.ShloMosaic.Adequacy
import Idealize.ShloMosaic.Init

noncomputable section

namespace Cert.Proof

open Idealize.ShloMosaic Idealize.SL.Sem

/-- The word-level kernel program terminates and leaves its arguments as launched. -/
theorem frame_kernel : Cert.frame_Kernel := fun m ρ _ => Cert.Kernel.Gen.frame m ρ

/-- So does the kernel program at exact arithmetic. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eight arguments both programs end with the same result: the kernel program's
    result buffer ends at the last boundary's contents, which are the reference's result of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v82_eq, e0, e1, e2, e3, e4, e5, e6, e7]
  exact (Cert.KernelIdeal.Boundary.result10 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
